-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x640 : Shape := ⟨3, ![8, 256, 640]⟩
abbrev S8x65x640 : Shape := ⟨3, ![8, 65, 640]⟩
abbrev S1280x1024 : Shape := ⟨2, ![1280, 1024]⟩
abbrev S1024 : Shape := ⟨1, ![1024]⟩
abbrev S_ : Shape := ⟨0, ![]⟩

class Facts : Prop where
  bcast_S_S8x256x640 : S_.BroadcastsInDim S8x256x640 (![] : Fin 0 → Fin S8x256x640.rank)
  reducesTo_S8x256x640_S_d0_1_2 : S8x256x640.ReducesTo [0, 1, 2] S_
  h_S_ : 0 < S_.numel
  bcast_S_S8x65x640 : S_.BroadcastsInDim S8x65x640 (![] : Fin 0 → Fin S8x65x640.rank)
  reducesTo_S8x65x640_S_d0_1_2 : S8x65x640.ReducesTo [0, 1, 2] S_
  bcast_S_S1280x1024 : S_.BroadcastsInDim S1280x1024 (![] : Fin 0 → Fin S1280x1024.rank)
  reducesTo_S1280x1024_S_d0_1 : S1280x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S8x256x640 .f32) (main_arg1 : FVec F S8x65x640 .f32) (main_arg2 : FVec F S1280x1024 .f32) (main_arg3 : FVec F S1024 .f32) : IVec S_ 1 :=
  let main_v0 : FVec F S8x256x640 .f32 := Host.absf main_arg0
  let main_cst : FVec F S_ .f32 := constant S_ .f32 0x7F800000#32
  let main_v1 : FVec F S8x256x640 .f32 := broadcastInDim S8x256x640 ![] bcast_S_S8x256x640 main_cst
  let main_v2 : IVec S8x256x640 1 := cmpf .olt main_v0 main_v1
  let main_c : IVec S_ 1 := constantI S_ 1 1#1
  let main_v3 : IVec S_ 1 := (fun x v => Host.reduce IntOp.andi x v reducesTo_S8x256x640_S_d0_1_2 h_S_) main_v2 main_c
  let main_v4 : FVec F S8x65x640 .f32 := Host.absf main_arg1
  let main_cst_0 : FVec F S_ .f32 := constant S_ .f32 0x7F800000#32
  let main_v5 : FVec F S8x65x640 .f32 := broadcastInDim S8x65x640 ![] bcast_S_S8x65x640 main_cst_0
  let main_v6 : IVec S8x65x640 1 := cmpf .olt main_v4 main_v5
  let main_c_1 : IVec S_ 1 := constantI S_ 1 1#1
  let main_v7 : IVec S_ 1 := (fun x v => Host.reduce IntOp.andi x v reducesTo_S8x65x640_S_d0_1_2 h_S_) main_v6 main_c_1
  let main_v8 : IVec S_ 1 := andi main_v3 main_v7
  let main_v9 : FVec F S1280x1024 .f32 := Host.absf main_arg2
  let main_cst_2 : FVec F S_ .f32 := constant S_ .f32 0x7F800000#32
  let main_v10 : FVec F S1280x1024 .f32 := broadcastInDim S1280x1024 ![] bcast_S_S1280x1024 main_cst_2
  let main_v11 : IVec S1280x1024 1 := cmpf .olt main_v9 main_v10
  let main_c_3 : IVec S_ 1 := constantI S_ 1 1#1
  let main_v12 : IVec S_ 1 := (fun x v => Host.reduce IntOp.andi x v reducesTo_S1280x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S8x256x640 : Shape := ⟨3, ![8, 256, 640]⟩
abbrev S8x65x640 : Shape := ⟨3, ![8, 65, 640]⟩
abbrev S1280x1024 : Shape := ⟨2, ![1280, 1024]⟩
abbrev S1024 : Shape := ⟨1, ![1024]⟩
abbrev S8x256x65x1024 : Shape := ⟨4, ![8, 256, 65, 1024]⟩
abbrev S1x16x640 : Shape := ⟨3, ![1, 16, 640]⟩
abbrev S1x65x640 : Shape := ⟨3, ![1, 65, 640]⟩
abbrev S1x16x65x1024 : Shape := ⟨4, ![1, 16, 65, 1024]⟩
abbrev S640x1024 : Shape := ⟨2, ![640, 1024]⟩
abbrev S16x640 : Shape := ⟨2, ![16, 640]⟩
abbrev S65x640 : Shape := ⟨2, ![65, 640]⟩
abbrev S16x1024 : Shape := ⟨2, ![16, 1024]⟩
abbrev S65x1024 : Shape := ⟨2, ![65, 1024]⟩
abbrev S16x1x1024 : Shape := ⟨3, ![16, 1, 1024]⟩
abbrev S1x65x1024 : Shape := ⟨3, ![1, 65, 1024]⟩
abbrev S16x65x1024 : Shape := ⟨3, ![16, 65, 1024]⟩
abbrev S1x1x1024 : Shape := ⟨3, ![1, 1, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8x256x640, .f32⟩
  | .hbm, ⟨1, _⟩ => ⟨S8x65x640, .f32⟩
  | .hbm, ⟨2, _⟩ => ⟨S1280x1024, .f32⟩
  | .hbm, ⟨3, _⟩ => ⟨S1024, .f32⟩
  | .hbm, ⟨4, _⟩ => ⟨S8x256x65x1024, .f32⟩
  | .local _ .vmem, ⟨0, _⟩ => ⟨S1x16x640, .f32⟩
  | .local _ .vmem, ⟨1, _⟩ => ⟨S1x16x640, .f32⟩
  | .local _ .vmem, ⟨2, _⟩ => ⟨S1x65x640, .f32⟩
  | .local _ .vmem, ⟨3, _⟩ => ⟨S1x65x640, .f32⟩
  | .local _ .vmem, ⟨4, _⟩ => ⟨S1280x1024, .f32⟩
  | .local _ .vmem, ⟨5, _⟩ => ⟨S1024, .f32⟩
  | .local _ .vmem, ⟨6, _⟩ => ⟨S1x16x65x1024, .f32⟩
  | .local _ .vmem, ⟨7, _⟩ => ⟨S1x16x65x1024, .f32⟩
  | _, _ => ⟨S8x256x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x65x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1280x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x16x65x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1280x1024_S640x1024_0_0 : ∀ a, (![0, 0] : Fin 2 → Nat) a + S640x1024.size a ≤ S1280x1024.size a
  h_S640x1024 : 0 < S640x1024.numel
  inb_S1280x1024_S640x1024_640_0 : ∀ a, (![640, 0] : Fin 2 → Nat) a + S640x1024.size a ≤ S1280x1024.size a
  inb_S1x16x640_S1x16x640_0_0_0 : ∀ a, (![0, 0, 0] : Fin 3 → Nat) a + S1x16x640.size a ≤ S1x16x640.size a
  h_S1x16x640 : 0 < S1x16x640.numel
  shapeCasts_S1x16x640_S16x640 : S1x16x640.ShapeCasts S16x640
  inb_S1x65x640_S1x65x640_0_0_0 : ∀ a, (![0, 0, 0] : Fin 3 → Nat) a + S1x65x640.size a ≤ S1x65x640.size a
  h_S1x65x640 : 0 < S1x65x640.numel
  shapeCasts_S1x65x640_S65x640 : S1x65x640.ShapeCasts S65x640
  bitsLt_bf16_f32 : FTy.bits .bf16 < FTy.bits .f32
  inb_S1024_S1024_0 : ∀ a, (![0] : Fin 1 → Nat) a + S1024.size a ≤ S1024.size a
  h_S1024 : 0 < S1024.numel
  shapeCasts_S16x1024_S16x1x1024 : S16x1024.ShapeCasts S16x1x1024
  shapeCasts_S65x1024_S1x65x1024 : S65x1024.ShapeCasts S1x65x1024
  broadcasts_S16x1x1024_S16x65x1024 : S16x1x1024.Broadcasts S16x65x1024
  broadcasts_S1x65x1024_S16x65x1024 : S1x65x1024.Broadcasts S16x65x1024
  shapeCasts_S1024_S1x1x1024 : S1024.ShapeCasts S1x1x1024
  broadcasts_S1x1x1024_S16x65x1024 : S1x1x1024.Broadcasts S16x65x1024
  inb_S1x16x65x1024_S1x16x65x1024_0_0_0_0 : ∀ a, (![0, 0, 0, 0] : Fin 4 → Nat) a + S1x16x65x1024.size a ≤ S1x16x65x1024.size a
  h_S1x16x65x1024 : 0 < S1x16x65x1024.numel
  shapeCasts_S1x16x65x1024_S16x65x1024 : S1x16x65x1024.ShapeCasts S16x65x1024
  shapeCasts_S16x65x1024_S1x16x65x1024 : S16x65x1024.ShapeCasts S1x16x65x1024
  dot_S16x640_S640x1024_S16x1024_1_0_0_1_n_n_wf : DotDims.WF S16x640 S640x1024 S16x1024 [1] [0] [0] [1] [] []
  dot_S65x640_S640x1024_S65x1024_1_0_0_1_n_n_wf : DotDims.WF S65x640 S640x1024 S65x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x640.size a ≤ S8x256x640.size a
  hwx0_0 : ∀ i : grid0.Coords, EltTy.bits .f32 = 32 ∨ (Rect.block (s := S8x256x640) S1x16x640.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x65x640.size a ≤ S8x65x640.size a
  hwx0_1 : ∀ i : grid0.Coords, EltTy.bits .f32 = 32 ∨ (Rect.block (s := S8x65x640) S1x65x640.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1280x1024.size a ≤ S1280x1024.size a
  hwx0_2 : ∀ i : grid0.Coords, EltTy.bits .f32 = 32 ∨ (Rect.block (s := S1280x1024) S1280x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x65x1024.size a ≤ S8x256x65x1024.size a
  hwx0_4 : ∀ i : grid0.Coords, EltTy.bits .f32 = 32 ∨ (Rect.block (s := S8x256x65x1024) S1x16x65x1024.size (cc0_transform_4 i) (hinb0_4 i)).WholeWords (EltTy.packing .f32)

variable [Facts₀]

def dot_S16x640_S640x1024_S16x1024_1_0_0_1_n_n : DotDims S16x640 S640x1024 S16x1024 where
  lhsContracting := [1]
  rhsContracting := [0]
  lhsNonContracting := [0]
  rhsNonContracting := [1]
  lhsBatch := []
  rhsBatch := []
  wf := dot_S16x640_S640x1024_S16x1024_1_0_0_1_n_n_wf
def dot_S65x640_S640x1024_S65x1024_1_0_0_1_n_n : DotDims S65x640 S640x1024 S65x1024 where
  lhsContracting := [1]
  rhsContracting := [0]
  lhsNonContracting := [0]
  rhsNonContracting := [1]
  lhsBatch := []
  rhsBatch := []
  wf := dot_S65x640_S640x1024_S65x1024_1_0_0_1_n_n_wf

abbrev win0_0 : Pipeline.Window sig grid0 :=
  Pipeline.Window.ofSpec (Memref.whole main_arg0) S1x16x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x65x640.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1280x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x16x65x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x256x640 : Shape := ⟨3, ![8, 256, 640]⟩
abbrev S8x65x640 : Shape := ⟨3, ![8, 65, 640]⟩
abbrev S1280x1024 : Shape := ⟨2, ![1280, 1024]⟩
abbrev S1024 : Shape := ⟨1, ![1024]⟩
abbrev S640x1024 : Shape := ⟨2, ![640, 1024]⟩
abbrev S8x256x1024 : Shape := ⟨3, ![8, 256, 1024]⟩
abbrev S8x65x1024 : Shape := ⟨3, ![8, 65, 1024]⟩
abbrev S8x256x1x1024 : Shape := ⟨4, ![8, 256, 1, 1024]⟩
abbrev S8x1x65x1024 : Shape := ⟨4, ![8, 1, 65, 1024]⟩
abbrev S8x256x65x1024 : Shape := ⟨4, ![8, 256, 65, 1024]⟩
abbrev S1x1x1x1024 : Shape := ⟨4, ![1, 1, 1, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8x256x640, .f32⟩
  | .hbm, ⟨1, _⟩ => ⟨S8x65x640, .f32⟩
  | .hbm, ⟨2, _⟩ => ⟨S1280x1024, .f32⟩
  | .hbm, ⟨3, _⟩ => ⟨S1024, .f32⟩
  | .hbm, ⟨4, _⟩ => ⟨S640x1024, .f32⟩
  | .hbm, ⟨5, _⟩ => ⟨S640x1024, .f32⟩
  | .hbm, ⟨6, _⟩ => ⟨S8x256x1024, .f32⟩
  | .hbm, ⟨7, _⟩ => ⟨S8x65x1024, .f32⟩
  | .hbm, ⟨8, _⟩ => ⟨S8x256x1x1024, .f32⟩
  | .hbm, ⟨9, _⟩ => ⟨S8x1x65x1024, .f32⟩
  | .hbm, ⟨10, _⟩ => ⟨S8x256x65x1024, .f32⟩
  | .hbm, ⟨11, _⟩ => ⟨S8x256x65x1024, .f32⟩
  | .hbm, ⟨12, _⟩ => ⟨S8x256x65x1024, .f32⟩
  | .hbm, ⟨13, _⟩ => ⟨S1x1x1x1024, .f32⟩
  | .hbm, ⟨14, _⟩ => ⟨S8x256x65x1024, .f32⟩
  | .hbm, ⟨15, _⟩ => ⟨S8x256x65x1024, .f32⟩
  | _, _ => ⟨S8x256x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]

class Facts₀ : Prop where
  slices_S1280x1024_S640x1024_0_0 : S1280x1024.Slices ![0, 0] S640x1024
  slices_S1280x1024_S640x1024_640_0 : S1280x1024.Slices ![640, 0] S640x1024
  bcast_S8x256x1024_S8x256x1x1024_0_1_3 : S8x256x1024.BroadcastsInDim S8x256x1x1024 (![0, 1, 3] : Fin 3 → Fin S8x256x1x1024.rank)
  bcast_S8x65x1024_S8x1x65x1024_0_2_3 : S8x65x1024.BroadcastsInDim S8x1x65x1024 (![0, 2, 3] : Fin 3 → Fin S8x1x65x1024.rank)
  bcast_S8x256x1x1024_S8x256x65x1024_0_1_2_3 : S8x256x1x1024.BroadcastsInDim S8x256x65x1024 (![0, 1, 2, 3] : Fin 4 → Fin S8x256x65x1024.rank)
  bcast_S8x1x65x1024_S8x256x65x1024_0_1_2_3 : S8x1x65x1024.BroadcastsInDim S8x256x65x1024 (![0, 1, 2, 3] : Fin 4 → Fin S8x256x65x1024.rank)
  bcast_S1024_S1x1x1x1024_3 : S1024.BroadcastsInDim S1x1x1x1024 (![3] : Fin 1 → Fin S1x1x1x1024.rank)
  bcast_S1x1x1x1024_S8x256x65x1024_0_1_2_3 : S1x1x1x1024.BroadcastsInDim S8x256x65x1024 (![0, 1, 2, 3] : Fin 4 → Fin S8x256x65x1024.rank)
  dot_S8x256x640_S640x1024_S8x256x1024_2_0_01_1_n_n_wf : DotDims.WF S8x256x640 S640x1024 S8x256x1024 [2] [0] [0, 1] [1] [] []
  dot_S8x65x640_S640x1024_S8x65x1024_2_0_01_1_n_n_wf : DotDims.WF S8x65x640 S640x1024 S8x65x1024 [2] [0] [0, 1] [1] [] []

variable [Facts₀]

def dot_S8x256x640_S640x1024_S8x256x1024_2_0_01_1_n_n : DotDims S8x256x640 S640x1024 S8x256x1024 where
  lhsContracting := [2]
  rhsContracting := [0]
  lhsNonContracting := [0, 1]
  rhsNonContracting := [1]
  lhsBatch := []
  rhsBatch := []
  wf := dot_S8x256x640_S640x1024_S8x256x1024_2_0_01_1_n_n_wf
def dot_S8x65x640_S640x1024_S8x65x1024_2_0_01_1_n_n : DotDims S8x65x640 S640x1024 S8x65x1024 where
  lhsContracting := [2]
  rhsContracting := [0]
  lhsNonContracting := [0, 1]
  rhsNonContracting := [1]
  lhsBatch := []
  rhsBatch := []
  wf := dot_S8x65x640_S640x1024_S8x65x1024_2_0_01_1_n_n_wf

class Facts : Prop extends Facts₀ where

variable [Facts]
-- ==== Proof.Joint.lean ====
/-
  The joint network's output as one function of its four argument arrays, over the extended reals.

  With `enc : [8, 256, 640]`, `pred : [8, 65, 640]`, a stacked weight matrix `W : [1280, 1024]` whose rows
  `0 … 639` project the encoder features and whose rows `640 … 1279` project the predictor features, and a bias
  `[1024]`, the entry at `(b, t, u, v)` is

      (Σ_{k<640} enc(b,t,k) · W(k,v)) + (Σ_{k<640} pred(b,u,k) · W(640+k,v)) + bias(v),

  the two projections added first and the bias last. Nothing here needs the arguments to be finite: the two
  programs compute these very sums in this very grouping.
-/
import Idealize.ShloMosaic.Lib.ValueIdx

noncomputable section

open scoped BigOperators

namespace Cert.Joint

open Idealize.ShloMosaic Idealize.ShloMosaic.ValueIdx

/-- Row `k` of the weight matrix's encoder half. -/
abbrev encRow (k : Fin 640) : Fin 1280 := ⟨k.val, by omega⟩
/-- Row `k` of the weight matrix's predictor half. -/
abbrev predRow (k : Fin 640) : Fin 1280 := ⟨640 + k.val, by omega⟩

/-- The output entry at batch `b`, encoder frame `t`, predictor step `u` and output unit `v`. -/
def jointAt (enc : FVec Ideal ⟨3, ![8, 256, 640]⟩ .f32) (pred : FVec Ideal ⟨3, ![8, 65, 640]⟩ .f32)
    (W : FVec Ideal ⟨2, ![1280, 1024]⟩ .f32) (bias : FVec Ideal ⟨1, ![1024]⟩ .f32)
    (b : Fin 8) (t : Fin 256) (u : Fin 65) (v : Fin 1024) : EReal :=
  (∑ k : Fin 640, enc (ix3 b t k) * W (ix2 (encRow k) v))
    + (∑ k : Fin 640, pred (ix3 b u k) * W (ix2 (predRow k) v))
    + bias (ix1 v)

/-- The whole output array. -/
def joint (enc : FVec Ideal ⟨3, ![8, 256, 640]⟩ .f32) (pred : FVec Ideal ⟨3, ![8, 65, 640]⟩ .f32)
    (W : FVec Ideal ⟨2, ![1280, 1024]⟩ .f32) (bias : FVec Ideal ⟨1, ![1024]⟩ .f32) :
    FVec Ideal ⟨4, ![8, 256, 65, 1024]⟩ .f32 :=
  fun i => jointAt enc pred W bias (i 0) (i 1) (i 2) (i 3)

/-- At an index written by coordinates the array is the entry. -/
theorem joint_ix4 (enc : FVec Ideal ⟨3, ![8, 256, 640]⟩ .f32) (pred : FVec Ideal ⟨3, ![8, 65, 640]⟩ .f32)
    (W : FVec Ideal ⟨2, ![1280, 1024]⟩ .f32) (bias : FVec Ideal ⟨1, ![1024]⟩ .f32)
    (b : Fin 8) (t : Fin 256) (u : Fin 65) (v : Fin 1024) :
    joint enc pred W bias (ix4 b t u v) = jointAt enc pred W bias b t u v := rfl

end Cert.Joint

end
-- ==== Proof.LibPlainDot.lean ====
/-
  A plain matrix product read at an index, over the extended reals.

  For dimension numbers that contract the left operand's axis 1 with the right operand's axis 0 and keep
  (left axis 0, right axis 1) as the result's axes, the contraction at result index `(a, b)` is
  `Σ_{k < K} l(a, k) · r(k, b)`: the same plain sum for a `tpu.matmul` into a zero accumulator and for the host's
  `dot_general`, whatever the rows' extent. The dimension record enters through four coordinate facts about how it
  reads its operands (for a printed record each holds by computation), so the lemmas serve every extent.
-/
import Idealize.ShloMosaic.Lib.ValueIdx
import Idealize.ShloMosaic.PureOps.Ideal.Laws

noncomputable section

namespace Cert.Lib.PlainDot

open Idealize.ShloMosaic Idealize.ShloMosaic.ValueIdx

variable {R K C : Nat} {φ₁ φ₂ : FTy}

/-- How a rows×inner by inner×cols dimension record reads its operands: one contracted axis of extent `K`; at result
    index `i` and contraction position `q` the left operand is read at `(i 0, q)` and the right at `(q, i 1)`. -/
structure Reads (d : DotDims (⟨2, ![R, K]⟩ : Shape) (⟨2, ![K, C]⟩ : Shape) (⟨2, ![R, C]⟩ : Shape)) : Prop where
  rank : d.contr.rank = 1
  size : d.contr.size ⟨0, by omega⟩ = K
  lhs0 : ∀ (i : (⟨2, ![R, C]⟩ : Shape).Idx) (q : d.contr.Idx), (d.lhsIdx i q 0).val = (i 0).val
  lhs1 : ∀ (i : (⟨2, ![R, C]⟩ : Shape).Idx) (q : d.contr.Idx), (d.lhsIdx i q 1).val = (q ⟨0, by omega⟩).val
  rhs0 : ∀ (i : (⟨2, ![R, C]⟩ : Shape).Idx) (q : d.contr.Idx), (d.rhsIdx i q 0).val = (q ⟨0, by omega⟩).val
  rhs1 : ∀ (i : (⟨2, ![R, C]⟩ : Shape).Idx) (q : d.contr.Idx), (d.rhsIdx i q 1).val = (i 1).val

variable {d : DotDims (⟨2, ![R, K]⟩ : Shape) (⟨2, ![K, C]⟩ : Shape) (⟨2, ![R, C]⟩ : Shape)}

/-- The sum over the record's contraction index is the sum over the inner axis' coordinate. -/
theorem sum_contr (h : Reads d) (l : FVec Ideal (⟨2, ![R, K]⟩ : Shape) φ₁) (r : FVec Ideal (⟨2, ![K, C]⟩ : Shape) φ₂)
    (a : Fin R) (b : Fin C) :
    ∑ q : d.contr.Idx, l (d.lhsIdx (ix2 a b) q) * r (d.rhsIdx (ix2 a b) q) = ∑ k : Fin K, l (ix2 a k) * r (ix2 k b) := by
  rw [← Equiv.sum_comp (contrEquiv1 d K h.rank h.size).symm]
  refine Finset.sum_congr rfl fun k _ => ?_
  have hk := contrEquiv1_symm_val d K h.rank h.size k
  have el : d.lhsIdx (ix2 a b) ((contrEquiv1 d K h.rank h.size).symm k) = ix2 a k := funext fun x => Fin.ext (by
    match x with
    | ⟨0, _⟩ => exact h.lhs0 _ _
    | ⟨1, _⟩ => exact (h.lhs1 _ _).trans hk)
  have er : d.rhsIdx (ix2 a b) ((contrEquiv1 d K h.rank h.size).symm k) = ix2 k b := funext fun x => Fin.ext (by
    match x with
    | ⟨0, _⟩ => exact (h.rhs0 _ _).trans hk
    | ⟨1, _⟩ => exact h.rhs1 _ _)
  rw [el, er]

/-- A `tpu.matmul` into the zero accumulator, at `(a, b)`. -/
theorem matmul_zero_apply (h : Reads d) (prec : Option ContractPrecision)
    (l : FVec Ideal (⟨2, ![R, K]⟩ : Shape) φ₁) (r : FVec Ideal (⟨2, ![K, C]⟩ : Shape) φ₂) (a : Fin R) (b : Fin C) :
    FloatOps.matmul d prec l r (constant (⟨2, ![R, C]⟩ : Shape) .f32 0x00000000#32) (ix2 a b)
      = ∑ k : Fin K, l (ix2 a k) * r (ix2 k b) :=
  (Ideal.matmul_constant_zero_apply d prec l r (ix2 a b)).trans (sum_contr h l r a b)

/-- The host's `dot_general`, at `(a, b)`. -/
theorem dotGeneral_apply (h : Reads d) (prec : Option ContractPrecision) (sched : HostSchedule)
    (l : FVec Ideal (⟨2, ![R, K]⟩ : Shape) φ₁) (r : FVec Ideal (⟨2, ![K, C]⟩ : Shape) φ₂) (a : Fin R) (b : Fin C) :
    FloatOps.dotGeneral d prec sched l r (ix2 a b) = ∑ k : Fin K, l (ix2 a k) * r (ix2 k b) :=
  (Ideal.dotGeneral_apply d prec sched l r (ix2 a b)).trans (sum_contr h l r a b)

end Cert.Lib.PlainDot

end
-- ==== Proof.LibRank3Layout.lean ====
/-
  Rank-3 layouts read at an index given by coordinates, for any element type and any extents.

  A value that varies along only some of three axes is stored with unit extents on the others and then
  broadcast. Read at `(p, q, r)`:
  • a matrix `[a, c]` recast as `[a, 1, c]` is the matrix at `(p, r)`, and broadcast to `[a, b, c]` it is the
    same entry for every `q`;
  • a stack `[1, b, c]` broadcast to `[a, b, c]` is the one matrix at `(q, r)` for every `p`;
  • a vector `[c]` recast as `[1, 1, c]` and broadcast to `[a, b, c]` is the vector at `r` for every `(p, q)`.
  Each cast keeps the row-major position; each broadcast reads coordinate `0` on a unit axis.
-/
import Idealize.ShloMosaic.Lib.ValueLayout

namespace Cert.Lib.Rank3Layout

open Idealize.ShloMosaic Idealize.ShloMosaic.ValueIdx

variable {α : Type}

/-- An `[a, c]` array cast to `[a, 1, c]` reads, at `(i, u, j)`, the operand at `(i, j)`: the unit axis in the
    middle does not move the row-major position. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (j : Fin c) :
    shapeCast ⟨3, ![a, 1, c]⟩ x h (ix3 i u j) = x (ix2 i j) :=
  shapeCast_apply x h _ _ (by
    have hu : u.val = 0 := by omega
    rw [Shape.rowMajor_val_two, Shape.rowMajor_val_three]
    show i.val * c + j.val = (i.val * 1 + u.val) * c + j.val
    rw [hu, Nat.mul_one, Nat.add_zero])

/-- A `[c]` array cast to `[1, 1, c]` reads, at `(u, w, j)`, the operand at `j`. -/
theorem shapeCast_c_11c_apply {c : ℕ} (x : (⟨1, ![c]⟩ : Shape).Idx → α)
    (h : (⟨1, ![c]⟩ : Shape).ShapeCasts ⟨3, ![1, 1, c]⟩) (u w : Fin 1) (j : Fin c) :
    shapeCast ⟨3, ![1, 1, c]⟩ x h (ix3 u w j) = x (ix1 j) :=
  shapeCast_apply x h _ _ (by
    have hu : u.val = 0 := by omega
    have hw : w.val = 0 := by omega
    rw [Shape.rowMajor_val_one, Shape.rowMajor_val_three]
    show j.val = (u.val * 1 + w.val) * c + j.val
    simp only [hu, hw, Nat.zero_mul, Nat.add_zero, Nat.zero_add])

/-- An `[a, 1, c]` array broadcast to `[a, b, c]` reads, at `(p, q, r)`, the operand at `(p, 0, r)`. -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ x h (ix3 p q r) = x (ix3 p (0 : Fin 1) r) := by
  refine broadcastTo_apply x h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- A `[1, b, c]` array broadcast to `[a, b, c]` reads, at `(p, q, r)`, the operand at `(0, q, r)`. -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ x h (ix3 p q r) = x (ix3 (0 : Fin 1) q r) := by
  refine broadcastTo_apply x h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- A `[1, 1, c]` array broadcast to `[a, b, c]` reads, at `(p, q, r)`, the operand at `(0, 0, r)`. -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ x h (ix3 p q r) = x (ix3 (0 : Fin 1) (0 : Fin 1) r) := by
  refine broadcastTo_apply x h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

/-- A matrix `[a, c]` laid along the first and last of three axes: recast `[a, 1, c]`, broadcast to `[a, b, c]`,
    read at `(p, q, r)`, it is the matrix at `(p, r)`. -/
theorem outer_rows_apply {a b c : ℕ} (x : (⟨2, ![a, c]⟩ : Shape).Idx → α)
    (h₁ : (⟨2, ![a, c]⟩ : Shape).ShapeCasts ⟨3, ![a, 1, c]⟩)
    (h₂ : (⟨3, ![a, 1, c]⟩ : Shape).Broadcasts ⟨3, ![a, b, c]⟩) (p : Fin a) (q : Fin b) (r : Fin c) :
    broadcastTo ⟨3, ![a, b, c]⟩ (shapeCast ⟨3, ![a, 1, c]⟩ x h₁) h₂ (ix3 p q r) = x (ix2 p r) :=
  (broadcastTo_a1c_abc_apply _ h₂ p q r).trans (shapeCast_ac_a1c_apply x h₁ p 0 r)

/-- A matrix `[b, c]` laid along the last two of three axes: recast `[1, b, c]`, broadcast to `[a, b, c]`, read
    at `(p, q, r)`, it is the matrix at `(q, r)`. -/
theorem inner_rows_apply {a b c : ℕ} (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) :=
  (broadcastTo_1bc_abc_apply _ h₂ p q r).trans (shapeCast_ab_1ab_apply x h₁ 0 q r)

/-- A vector `[c]` laid along the last of three axes: recast `[1, 1, c]`, broadcast to `[a, b, c]`, read at
    `(p, q, r)`, it is the vector at `r`. -/
theorem lanes_apply {a b c : ℕ} (x : (⟨1, ![c]⟩ : Shape).Idx → α)
    (h₁ : (⟨1, ![c]⟩ : Shape).ShapeCasts ⟨3, ![1, 1, c]⟩)
    (h₂ : (⟨3, ![1, 1, c]⟩ : Shape).Broadcasts ⟨3, ![a, b, c]⟩) (p : Fin a) (q : Fin b) (r : Fin c) :
    broadcastTo ⟨3, ![a, b, c]⟩ (shapeCast ⟨3, ![1, 1, c]⟩ x h₁) h₂ (ix3 p q r) = x (ix1 r) :=
  (broadcastTo_11c_abc_apply _ h₂ p q r).trans (shapeCast_c_11c_apply x h₁ 0 0 r)

end Cert.Lib.Rank3Layout
-- ==== Proof.JointPayload.lean ====
/-
  What the kernel body stores for one block, read at an index.

  The body holds a `[1, 16, 640]` block of encoder frames, the `[1, 65, 640]` predictor rows of one batch entry, the
  two `[640, 1024]` halves of the weight matrix and the bias. It multiplies frames by the first half and
  predictor rows by the second (each product a sum over the 640 features; the narrowing to bf16 on the way in is
  the identity on extended reals, and the accumulator starts at zero), lays the `[16, 1024]` product along the
  frame and unit axes, the `[65, 1024]` product along the step and unit axes, the bias along the unit axis, and
  adds them — projections first, bias last. So the stored `[1, 16, 65, 1024]` block at `(0, p, u, v)` is

      (Σ_k frames(0,p,k) · W₀(k,v)) + (Σ_k rows(0,u,k) · W₁(k,v)) + bias(v).
-/
import proofs.«105166_j30786325578116_1_alg».proof.Proof.Gen.KernelIdeal.Skeleton
import proofs.«105166_j30786325578116_1_alg».proof.Proof.LibPlainDot
import proofs.«105166_j30786325578116_1_alg».proof.Proof.LibRank3Layout
import Idealize.ShloMosaic.Lib.ValueLayout

noncomputable section

open scoped BigOperators

namespace Cert.KernelIdeal.JointValue

open Cert.KernelIdeal Cert.KernelIdeal.Gen Idealize.ShloMosaic Idealize.ShloMosaic.ValueIdx Cert.Lib

/-- The frames' product contracts the frames' feature axis with the weight half's row axis. -/
theorem reads_frames : PlainDot.Reads dot_S16x640_S640x1024_S16x1024_1_0_0_1_n_n where
  rank := rfl
  size := rfl
  lhs0 := fun _ _ => rfl
  lhs1 := fun i q => dot_S16x640_S640x1024_S16x1024_1_0_0_1_n_n.lhsIdx_val_of_single rfl i q
  rhs0 := fun i q => dot_S16x640_S640x1024_S16x1024_1_0_0_1_n_n.rhsIdx_val_of_single rfl i q
  rhs1 := fun _ _ => rfl

/-- The predictor rows' product contracts likewise. -/
theorem reads_rows : PlainDot.Reads dot_S65x640_S640x1024_S65x1024_1_0_0_1_n_n where
  rank := rfl
  size := rfl
  lhs0 := fun _ _ => rfl
  lhs1 := fun i q => dot_S65x640_S640x1024_S65x1024_1_0_0_1_n_n.lhsIdx_val_of_single rfl i q
  rhs0 := fun i q => dot_S65x640_S640x1024_S65x1024_1_0_0_1_n_n.rhsIdx_val_of_single rfl i q
  rhs1 := fun _ _ => rfl

/-- The frames' projection at `(p, v)`: the sum over the features of frame `p` times column `v`. -/
theorem frames_proj_apply (x0 : FVec Ideal S1x16x640 .f32) (w : FVec Ideal S640x1024 .f32)
    (h : S1x16x640.ShapeCasts S16x640) (hb : FTy.bits .bf16 < FTy.bits .f32) (p : Fin 16) (v : Fin 1024) :
    matmul (F := Ideal) dot_S16x640_S640x1024_S16x1024_1_0_0_1_n_n none (truncf .bf16 (shapeCast S16x640 x0 h) hb) (truncf .bf16 w hb)
        (constant (F := Ideal) S16x1024 .f32 0x00000000#32) (ix2 p v)
      = ∑ k : Fin 640, x0 (ix3 (0 : Fin 1) p k) * w (ix2 k v) :=
  (PlainDot.matmul_zero_apply reads_frames none _ _ p v).trans
    (Finset.sum_congr rfl fun k _ => congrArg (· * w (ix2 k v)) (shapeCast_1ab_ab_apply x0 h p k))

/-- The predictor rows' projection at `(u, v)`. -/
theorem rows_proj_apply (x1 : FVec Ideal S1x65x640 .f32) (w : FVec Ideal S640x1024 .f32)
    (h : S1x65x640.ShapeCasts S65x640) (hb : FTy.bits .bf16 < FTy.bits .f32) (u : Fin 65) (v : Fin 1024) :
    matmul (F := Ideal) dot_S65x640_S640x1024_S65x1024_1_0_0_1_n_n none (truncf .bf16 (shapeCast S65x640 x1 h) hb) (truncf .bf16 w hb)
        (constant (F := Ideal) S65x1024 .f32 0x00000000#32) (ix2 u v)
      = ∑ k : Fin 640, x1 (ix3 (0 : Fin 1) u k) * w (ix2 k v) :=
  (PlainDot.matmul_zero_apply reads_rows none _ _ u v).trans
    (Finset.sum_congr rfl fun k _ => congrArg (· * w (ix2 k v)) (shapeCast_1ab_ab_apply x1 h u k))

/-- THE STORED BLOCK at `(z, p, u, v)`: frame `p`'s projection plus predictor row `u`'s projection plus the bias,
    all at output unit `v`. -/
theorem stored_apply (w0 w1 : FVec Ideal S640x1024 .f32) (x0 : FVec Ideal S1x16x640 .f32) (x1 : FVec Ideal S1x65x640 .f32)
    (x3 : FVec Ideal S1024 .f32) (z : Fin 1) (p : Fin 16) (u : Fin 65) (v : Fin 1024) :
    k0_pay1 w0 w1 x0 x1 x3 (ix4 z p u v)
      = (∑ k : Fin 640, x0 (ix3 (0 : Fin 1) p k) * w0 (ix2 k v))
        + (∑ k : Fin 640, x1 (ix3 (0 : Fin 1) u k) * w1 (ix2 k v))
        + x3 (ix1 v) := by
  unfold k0_pay1
  refine (shapeCast_abc_1abc_apply _ _ z p u v).trans ?_
  refine congrArg₂ (· + ·) (congrArg₂ (· + ·) ?_ ?_) ?_
  · exact (Rank3Layout.outer_rows_apply _ _ _ p u v).trans (frames_proj_apply x0 w0 _ _ p v)
  · exact (Rank3Layout.inner_rows_apply _ _ _ p u v).trans (rows_proj_apply x1 w1 _ _ u v)
  · exact Rank3Layout.lanes_apply x3 _ _ p u v

end Cert.KernelIdeal.JointValue

end
-- ==== Proof.JointKernel.lean ====
/-
  The kernel's output array is the joint function of its argument arrays.

  The grid is 8 batch entries by 16 tiles of 16 encoder frames. At point `(bi, ti)` the body sees frames
  `16·ti … 16·ti+15` of batch `bi`, all 65 predictor rows of batch `bi`, the whole weight matrix and the whole
  bias, and writes back block `(bi, ti, 0, 0)` of the output: rows `(bi, 16·ti + p, u, v)`. The stored block is, entry
  by entry, the joint function at the array index the block entry lands on — the frames' block read at `(0, p, k)`
  is the encoder array at `(bi, 16·ti + p, k)`, the rows' block at `(0, u, k)` the predictor array at `(bi, u, k)`,
  the two loaded halves of the weights its rows `k` and `640 + k`. The 128 blocks tile the output, so after the run
  the whole array is the joint function.
-/
import proofs.«105166_j30786325578116_1_alg».proof.Proof.Gen.KernelIdeal.Value
import proofs.«105166_j30786325578116_1_alg».proof.Proof.Joint
import proofs.«105166_j30786325578116_1_alg».proof.Proof.JointPayload

noncomputable section

open scoped BigOperators

namespace Cert.KernelIdeal.JointValue

open Cert.KernelIdeal Cert.KernelIdeal.Gen Cert.KernelIdeal.Value Idealize.ShloMosaic Idealize.ShloMosaic.TcCoe Idealize.SL.Sem
open Idealize.ShloMosaic.ValueIdx Cert.Joint
open Idealize.ShloMosaic.Pipeline (Dat)

variable (m : (ℓ : Loc nD τ sig) → Buf (Elt Ideal) ℓ) (ρ : Dev nD → PrngReg)

theorem zeros4 : (![0, 0, 0, 0] : Fin 4 → Nat) = fun _ => 0 := funext fun a => by fin_cases a <;> rfl
theorem zeros3 : (![0, 0, 0] : Fin 3 → Nat) = fun _ => 0 := funext fun a => by fin_cases a <;> rfl
theorem zeros1 : (![0] : Fin 1 → Nat) = fun _ => 0 := funext fun a => by fin_cases a <;> rfl

/-- The block indices at every grid point: the frames' window moves with the output's on the batch and frame axes,
    the predictor's on the batch axis only, the weights' and the bias' not at all; the output's block index is
    `(bi, ti, 0, 0)` with `bi < 8`, `ti < 16`. -/
theorem block_indices : ∀ t : Fin cfg0.N,
    win0_0.index t (0 : Fin 3) = win0_4.index t (0 : Fin 4) ∧ win0_0.index t (1 : Fin 3) = win0_4.index t (1 : Fin 4)
    ∧ win0_0.index t (2 : Fin 3) = 0
    ∧ win0_1.index t (0 : Fin 3) = win0_4.index t (0 : Fin 4) ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 4) < 8 ∧ win0_4.index t (1 : Fin 4) < 16
    ∧ win0_4.index t (2 : Fin 4) = 0 ∧ win0_4.index t (3 : Fin 4) = 0 :=
  (by decide +kernel : ∀ t : Fin grid0.N, _)

/-- Every output block `(bi, ti, 0, 0)` is some grid point's. -/
theorem block_onto : ∀ (bi : Fin 8) (ti : Fin 16), ∃ t : Fin cfg0.N, win0_4.index t = ![bi.val, ti.val, 0, 0] :=
  (by decide +kernel : ∀ (bi : Fin 8) (ti : Fin 16), ∃ t : Fin grid0.N, win0_4.index t = ![bi.val, ti.val, 0, 0])

/-- The frames' block at `(0, p, k)` is the encoder array at `(bi, 16·ti + p, k)`. -/
theorem frames_read (c : Dev nD) (t : Fin cfg0.N) (p : Fin 16) (k : Fin 640) (B : Fin 8) (T : Fin 256)
    (hB : B.val = win0_4.index t (0 : Fin 4)) (hT : T.val = win0_4.index t (1 : Fin 4) * 16 + p.val) :
    iblk m c 0 t (ix3 (0 : Fin 1) p k) = V m c main_arg0 (ix3 B T k) := by
  obtain ⟨e00, e01, e02, -⟩ := block_indices t
  show V m c main_arg0 (((cfg0.win 0).blk t).view.emb (ix3 (0 : Fin 1) p k)) = V m c main_arg0 (ix3 B T k)
  refine congrArg (V m c main_arg0) (funext fun a => Fin.ext ?_)
  match a with
  | ⟨0, _⟩ => show win0_0.index t (0 : Fin 3) * 1 + 1 * 0 = B.val; omega
  | ⟨1, _⟩ => show win0_0.index t (1 : Fin 3) * 16 + 1 * p.val = T.val; omega
  | ⟨2, _⟩ => show win0_0.index t (2 : Fin 3) * 640 + 1 * k.val = k.val; omega

/-- The predictor rows' block at `(0, u, k)` is the predictor array at `(bi, u, k)`. -/
theorem rows_read (c : Dev nD) (t : Fin cfg0.N) (u : Fin 65) (k : Fin 640) (B : Fin 8)
    (hB : B.val = win0_4.index t (0 : Fin 4)) :
    iblk m c 1 t (ix3 (0 : Fin 1) u k) = V m c main_arg1 (ix3 B u k) := by
  obtain ⟨-, -, -, e10, e11, e12, -⟩ := block_indices t
  show V m c main_arg1 (((cfg0.win 1).blk t).view.emb (ix3 (0 : Fin 1) u k)) = V m c main_arg1 (ix3 B u k)
  refine congrArg (V m c main_arg1) (funext fun a => Fin.ext ?_)
  match a with
  | ⟨0, _⟩ => show win0_1.index t (0 : Fin 3) * 1 + 1 * 0 = B.val; omega
  | ⟨1, _⟩ => show win0_1.index t (1 : Fin 3) * 65 + 1 * u.val = u.val; omega
  | ⟨2, _⟩ => show win0_1.index t (2 : Fin 3) * 640 + 1 * k.val = k.val; omega

/-- The first loaded half of the weights' block at `(k, v)` is the weight matrix at row `k`. -/
theorem enc_half_read (c : Dev nD) (t : Fin cfg0.N) (k : Fin 640) (v : Fin 1024) :
    View.ld (iblk m c 2 t) r0_0 (ix2 k v) = V m c main_arg2 (ix2 (encRow k) v) := by
  obtain ⟨-, -, -, -, -, -, e20, e21, -⟩ := block_indices t
  show V m c main_arg2 (((cfg0.win 2).blk t).view.emb (r0_0.toLoadRect.idx (ix2 k v))) = V m c main_arg2 (ix2 (encRow k) v)
  refine congrArg (V m c main_arg2) (funext fun a => Fin.ext ?_)
  match a with
  | ⟨0, _⟩ => show win0_2.index t (0 : Fin 2) * 1280 + 1 * (0 + 1 * k.val) = k.val; omega
  | ⟨1, _⟩ => show win0_2.index t (1 : Fin 2) * 1024 + 1 * (0 + 1 * v.val) = v.val; omega

/-- The second loaded half at `(k, v)` is the weight matrix at row `640 + k`. -/
theorem pred_half_read (c : Dev nD) (t : Fin cfg0.N) (k : Fin 640) (v : Fin 1024) :
    View.ld (iblk m c 2 t) r0_1 (ix2 k v) = V m c main_arg2 (ix2 (predRow k) v) := by
  obtain ⟨-, -, -, -, -, -, e20, e21, -⟩ := block_indices t
  show V m c main_arg2 (((cfg0.win 2).blk t).view.emb (r0_1.toLoadRect.idx (ix2 k v))) = V m c main_arg2 (ix2 (predRow k) v)
  refine congrArg (V m c main_arg2) (funext fun a => Fin.ext ?_)
  match a with
  | ⟨0, _⟩ => show win0_2.index t (0 : Fin 2) * 1280 + 1 * (640 + 1 * k.val) = 640 + k.val; omega
  | ⟨1, _⟩ => show win0_2.index t (1 : Fin 2) * 1024 + 1 * (0 + 1 * v.val) = v.val; omega

/-- The bias' block is the bias. -/
theorem bias_read (c : Dev nD) (t : Fin cfg0.N) (v : Fin 1024) :
    iblk m c 3 t (ix1 v) = V m c main_arg3 (ix1 v) := by
  obtain ⟨-, -, -, -, -, -, -, -, e30, -⟩ := block_indices t
  show V m c main_arg3 (((cfg0.win 3).blk t).view.emb (ix1 v)) = V m c main_arg3 (ix1 v)
  refine congrArg (V m c main_arg3) (funext fun a => Fin.ext ?_)
  match a with
  | ⟨0, _⟩ => show win0_3.index t (0 : Fin 1) * 1024 + 1 * v.val = v.val; omega

/-- WHAT POINT `t` WRITES BACK is block `t` of the joint function of the argument arrays. -/
theorem flushed_eq (c : Dev nD) (t : Fin cfg0.N) :
    (dats m 0 c).flushed 4 t = ((cfg0.win 4).blk t).view.read (Elt Ideal)
      (joint (V m c main_arg0) (V m c main_arg1) (V m c main_arg2) (V m c main_arg3)) := by
  rw [flushed4]
  unfold out0_4
  rw [View.canon_unit_zero zeros4]
  simp only [View.ld_unit_zero (S := S1x16x640) zeros3, View.ld_unit_zero (S := S1x65x640) zeros3,
    View.ld_unit_zero (S := S1024) zeros1]
  obtain ⟨-, -, -, -, -, -, -, -, -, hb, ht, e42, e43⟩ := block_indices t
  refine funext fun (j : S1x16x65x1024.Idx) => ?_
  obtain ⟨z, p, u, v, rfl⟩ : ∃ (z : Fin 1) (p : Fin 16) (u : Fin 65) (v : Fin 1024), j = ix4 z p u v :=
    ⟨j 0, j 1, j 2, j 3, eq_ix4 j⟩
  -- the array index the block entry lands on
  obtain ⟨B, hB⟩ : ∃ B : Fin 8, B.val = win0_4.index t (0 : Fin 4) := ⟨⟨_, hb⟩, rfl⟩
  obtain ⟨T, hT⟩ : ∃ T : Fin 256, T.val = win0_4.index t (1 : Fin 4) * 16 + p.val :=
    ⟨⟨win0_4.index t (1 : Fin 4) * 16 + p.val, by omega⟩, rfl⟩
  have hE : ((cfg0.win 4).blk t).view.emb (ix4 z p u v) = ix4 B T u v := funext fun a => Fin.ext (by
    match a with
    | ⟨0, _⟩ => show win0_4.index t (0 : Fin 4) * 1 + 1 * z.val = B.val; omega
    | ⟨1, _⟩ => show win0_4.index t (1 : Fin 4) * 16 + 1 * p.val = T.val; omega
    | ⟨2, _⟩ => show win0_4.index t (2 : Fin 4) * 65 + 1 * u.val = u.val; omega
    | ⟨3, _⟩ => show win0_4.index t (3 : Fin 4) * 1024 + 1 * v.val = v.val; omega)
  show k0_pay1 (View.ld (iblk m c 2 t) r0_0) (View.ld (iblk m c 2 t) r0_1) (iblk m c 0 t) (iblk m c 1 t) (iblk m c 3 t) (ix4 z p u v)
    = joint (V m c main_arg0) (V m c main_arg1) (V m c main_arg2) (V m c main_arg3) (((cfg0.win 4).blk t).view.emb (ix4 z p u v))
  rw [hE, joint_ix4]
  refine (stored_apply (View.ld (iblk m c 2 t) r0_0) (View.ld (iblk m c 2 t) r0_1) (iblk m c 0 t) (iblk m c 1 t) (iblk m c 3 t) z p u v).trans ?_
  unfold jointAt
  refine congrArg₂ (· + ·) (congrArg₂ (· + ·) (Finset.sum_congr rfl fun k _ => ?_) (Finset.sum_congr rfl fun k _ => ?_)) ?_
  · exact congrArg₂ (· * ·) (frames_read m c t p k B T hB hT) (enc_half_read m c t k v)
  · exact congrArg₂ (· * ·) (rows_read m c t u k B hB) (pred_half_read m c t k v)
  · exact bias_read m c t v

/-- An index of the output is in point `t`'s block iff each coordinate is in the block's range on its axis. -/
theorem mem_block (t : Fin cfg0.N) (i : S8x256x65x1024.Idx) :
    i ∈ ((cfg0.win 4).blk t).view.set ↔ ∀ a : Fin 4, win0_4.index t a * S1x16x65x1024.size a ≤ (i a).val
      ∧ (i a).val < win0_4.index t a * S1x16x65x1024.size a + S1x16x65x1024.size a := by
  show i ∈ ((View.whole main_v0).slice (win0_4.rect t)).set ↔ _
  rw [View.set_slice_whole, Rect.mem_set_unit]
  exact Iff.rfl

/-- The 128 blocks tile the output: index `(b, t', u, v)` is in the block of the point with block index
    `(b, t' / 16, 0, 0)`. -/
theorem covered (i : S8x256x65x1024.Idx) :
    ∃ t : Fin cfg0.N, (cfg0.win 4).flush t = true ∧ i ∈ ((cfg0.win 4).blk t).view.set := by
  have hi0 : (i 0).val < 8 := (i 0).isLt
  have hi1 : (i 1).val < 256 := (i 1).isLt
  have hi2 : (i 2).val < 65 := (i 2).isLt
  have hi3 : (i 3).val < 1024 := (i 3).isLt
  obtain ⟨t, ht⟩ := block_onto ⟨(i 0).val, hi0⟩ ⟨(i 1).val / 16, by omega⟩
  have q0 : win0_4.index t (0 : Fin 4) = (i 0).val := congrFun ht 0
  have q1 : win0_4.index t (1 : Fin 4) = (i 1).val / 16 := congrFun ht 1
  have q2 : win0_4.index t (2 : Fin 4) = 0 := congrFun ht 2
  have q3 : win0_4.index t (3 : Fin 4) = 0 := congrFun ht 3
  refine ⟨t, flush0_4 t, ?_⟩
  rw [mem_block]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 16 ≤ (i 1).val ∧ (i 1).val < win0_4.index t (1 : Fin 4) * 16 + 16; omega
  | ⟨2, _⟩ => show win0_4.index t (2 : Fin 4) * 65 ≤ (i 2).val ∧ (i 2).val < win0_4.index t (2 : Fin 4) * 65 + 65; omega
  | ⟨3, _⟩ => show win0_4.index t (3 : Fin 4) * 1024 ≤ (i 3).val ∧ (i 3).val < win0_4.index t (3 : Fin 4) * 1024 + 1024; omega

/-- THE OUTPUT ARRAY after the run is the joint function of the argument arrays as launched. -/
theorem final (c : Dev nD) :
    (dats m 0 c).arrAt 4 cfg0.N = joint (m ((c : Thread nD τ).loc main_arg0)) (m ((c : Thread nD τ).loc main_arg1))
      (m ((c : Thread nD τ).loc main_arg2)) (m ((c : Thread nD τ).loc main_arg3)) :=
  (dats m 0 c).arrAt_eq_of_cover 4 _ (fun t _ => flushed_eq m c t) covered

/-- The kernel's run: the result array ends at the joint function of the arguments, the arguments unchanged. -/
theorem run : θ_run defs (onTc (τ := τ) (main (F := Ideal))) ⟨m, fun _ => 0, ρ⟩ fun r => ∀ c : Dev nD,
      r.2.mem ((c : Thread nD τ).loc main_v0) = joint (m ((c : Thread nD τ).loc main_arg0)) (m ((c : Thread nD τ).loc main_arg1))
        (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.JointValue

end
-- ==== Proof.JointReference.lean ====
/-
  The reference program computes the joint function.

  Its host operations, read one at a time at an index `(b, t, u, v)`: the two halves of the weight matrix are the
  row ranges `0 … 639` and `640 … 1279`; each `dot_general` is the plain sum over the 640 features; the two
  broadcasts of the encoder projection drop `u`, those of the predictor projection drop `t`, those of the bias
  drop `(b, t, u)`; the two additions group as (encoder + predictor) + bias. That is the entry of `Joint.joint`.
-/
import proofs.«105166_j30786325578116_1_alg».proof.Proof.Gen.ReferenceIdeal.Read
import proofs.«105166_j30786325578116_1_alg».proof.Proof.Joint

noncomputable section

open scoped BigOperators

namespace Cert.ReferenceIdeal.JointValue

open Cert.ReferenceIdeal Cert.ReferenceIdeal.Read Idealize.ShloMosaic Idealize.ShloMosaic.ValueIdx Cert.Joint

/-- The reference's last stage is the joint function of its four arguments. -/
theorem reference_eq (x0 : (⟨S8x256x640, .f32⟩ : BufTy).Contents (Elt Ideal)) (x1 : (⟨S8x65x640, .f32⟩ : BufTy).Contents (Elt Ideal))
    (x2 : (⟨S1280x1024, .f32⟩ : BufTy).Contents (Elt Ideal)) (x3 : (⟨S1024, .f32⟩ : BufTy).Contents (Elt Ideal)) :
    val_main_v11 (F := Ideal) x0 x1 x2 x3 = joint x0 x1 x2 x3 := by
  funext i
  obtain ⟨b, t, u, v, rfl⟩ : ∃ (b : Fin 8) (t : Fin 256) (u : Fin 65) (v : Fin 1024), i = ix4 b t u v :=
    ⟨i 0, i 1, i 2, i 3, eq_ix4 i⟩
  rw [val_main_v11_apply, val_main_v8_apply, val_main_v6_apply, val_main_v4_apply, val_main_v2_apply,
    val_main_v7_apply, val_main_v5_apply, val_main_v3_apply, val_main_v10_apply, val_main_v9_apply]
  simp only [val_main_v0_apply, val_main_v1_apply]
  have e0 : ∀ k, lidx_main_v2 (idx_main_v4 (idx_main_v6 (ix4 b t u v))) k = ix3 b t k :=
    fun k => funext fun a => Fin.ext (by match a with | ⟨0, _⟩ => rfl | ⟨1, _⟩ => rfl | ⟨2, _⟩ => rfl)
  have e1 : ∀ k, idx_main_v0 (ridx_main_v2 (idx_main_v4 (idx_main_v6 (ix4 b t u v))) k) = ix2 (encRow k) v :=
    fun k => funext fun a => Fin.ext (by match a with | ⟨0, _⟩ => rfl | ⟨1, _⟩ => rfl)
  have e2 : ∀ k, lidx_main_v3 (idx_main_v5 (idx_main_v7 (ix4 b t u v))) k = ix3 b u k :=
    fun k => funext fun a => Fin.ext (by match a with | ⟨0, _⟩ => rfl | ⟨1, _⟩ => rfl | ⟨2, _⟩ => rfl)
  have e3 : ∀ k, idx_main_v1 (ridx_main_v3 (idx_main_v5 (idx_main_v7 (ix4 b t u v))) k) = ix2 (predRow k) v :=
    fun k => funext fun a => Fin.ext (by match a with | ⟨0, _⟩ => rfl | ⟨1, _⟩ => rfl)
  have e4 : idx_main_v9 (idx_main_v10 (ix4 b t u v)) = ix1 v :=
    funext fun a => Fin.ext (by match a with | ⟨0, _⟩ => rfl)
  simp only [e0, e1, e2, e3, e4]
  rfl

end Cert.ReferenceIdeal.JointValue

end
-- ==== Proof.lean ====
/-
  A joint network's fused kernel against its reference, over the extended reals.

  Both programs take encoder features `enc : [8, 256, 640]`, predictor features `pred : [8, 65, 640]`, a stacked
  weight matrix `W : [1280, 1024]` and a bias `[1024]`, and return the `[8, 256, 65, 1024]` array whose entry at
  `(b, t, u, v)` is

      (Σ_{k<640} enc(b,t,k) · W(k,v)) + (Σ_{k<640} pred(b,u,k) · W(640+k,v)) + bias(v).

  The kernel computes it tile by tile — at grid point `(b, ti)` sixteen encoder frames against all predictor rows of
  batch `b`, the operands narrowed to bf16 before each product, which changes nothing on extended reals — and the
  reference by two whole contractions and three broadcasts. The sums, their grouping and the order of the two
  additions are the same on both sides, so the two results agree for every input, finite or not: the precondition
  is never opened. The idealization rewrote nothing, so the kernel as printed and its idealization are one text.
-/
import proofs.«105166_j30786325578116_1_alg».proof.Defs
import proofs.«105166_j30786325578116_1_alg».proof.Proof.Gen.Kernel
import proofs.«105166_j30786325578116_1_alg».proof.Proof.Gen.Kernel.Skeleton
import proofs.«105166_j30786325578116_1_alg».proof.Proof.Gen.Kernel.Launch
import proofs.«105166_j30786325578116_1_alg».proof.Proof.Gen.Kernel.Points
import proofs.«105166_j30786325578116_1_alg».proof.Proof.Gen.Kernel.Frame
import proofs.«105166_j30786325578116_1_alg».proof.Proof.Gen.KernelIdeal
import proofs.«105166_j30786325578116_1_alg».proof.Proof.Gen.KernelIdeal.Skeleton
import proofs.«105166_j30786325578116_1_alg».proof.Proof.Gen.KernelIdeal.Launch
import proofs.«105166_j30786325578116_1_alg».proof.Proof.Gen.KernelIdeal.Points
import proofs.«105166_j30786325578116_1_alg».proof.Proof.Gen.KernelIdeal.Frame
import proofs.«105166_j30786325578116_1_alg».proof.Proof.Gen.KernelIdeal.Value
import proofs.«105166_j30786325578116_1_alg».proof.Proof.Gen.ReferenceIdeal
import proofs.«105166_j30786325578116_1_alg».proof.Proof.Gen.ReferenceIdeal.Run
import proofs.«105166_j30786325578116_1_alg».proof.Proof.Gen.ReferenceIdeal.Read
import proofs.«105166_j30786325578116_1_alg».proof.Proof.Gen.Pre_finite_inputs
import proofs.«105166_j30786325578116_1_alg».proof.Proof.JointKernel
import proofs.«105166_j30786325578116_1_alg».proof.Proof.JointReference
import Idealize.ShloMosaic.Adequacy
import Idealize.ShloMosaic.Init

noncomputable section

namespace Cert.Proof

open Idealize.ShloMosaic Idealize.SL.Sem

/-- The kernel as printed terminates without a fault and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten on the way to the idealized kernel. -/
theorem preserves : Cert.preserves_Kernel_KernelIdeal := trivial

/-- From memories that agree on the four arguments, the kernel's result array and the reference's are both the joint
    function of those arguments. -/
theorem algebraic : Cert.algebraic_KernelIdeal_ReferenceIdeal := by
  intro m ρ m' ρ' _ hagree
  refine ⟨_, Cert.KernelIdeal.JointValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v11_eq _ _ _ _).trans (Cert.ReferenceIdeal.JointValue.reference_eq _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
